-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S_ : Shape := ⟨0, ![]⟩

class Facts : Prop where
  bcast_S_S160000x256 : S_.BroadcastsInDim S160000x256 (![] : Fin 0 → Fin S160000x256.rank)
  reducesTo_S160000x256_S_d0_1 : S160000x256.ReducesTo [0, 1] S_
  h_S_ : 0 < S_.numel
  bcast_S_S256x500 : S_.BroadcastsInDim S256x500 (![] : Fin 0 → Fin S256x500.rank)
  reducesTo_S256x500_S_d0_1 : S256x500.ReducesTo [0, 1] S_
  bcast_S_S500x50 : S_.BroadcastsInDim S500x50 (![] : Fin 0 → Fin S500x50.rank)
  reducesTo_S500x50_S_d0_1 : S500x50.ReducesTo [0, 1] S_
  bcast_S_S50x1 : S_.BroadcastsInDim S50x1 (![] : Fin 0 → Fin S50x1.rank)
  reducesTo_S50x1_S_d0_1 : S50x1.ReducesTo [0, 1] S_

variable [Facts]

def fn_part1 {F : FTy → Type} [FloatOps F] (main_v13 : IVec S_ 1) (main_v16 : IVec S50x1 1) : IVec S_ 1 :=
  let main_c_5 : IVec S_ 1 := constantI S_ 1 1#1
  let main_v17 : IVec S_ 1 := (fun x v => Host.reduce IntOp.andi x v reducesTo_S50x1_S_d0_1 h_S_) main_v16 main_c_5
  let main_v18 : IVec S_ 1 := andi main_v13 main_v17
  main_v18

def fn {F : FTy → Type} [FloatOps F] (main_arg0 : FVec F S160000x256 .f32) (main_arg1 : FVec F S256x500 .f32) (main_arg2 : FVec F S500x50 .f32) (main_arg3 : FVec F S50x1 .f32) : IVec S_ 1 :=
  let main_v0 : FVec F S160000x256 .f32 := Host.absf main_arg0
  let main_cst : FVec F S_ .f32 := constant S_ .f32 0x7F800000#32
  let main_v1 : FVec F S160000x256 .f32 := broadcastInDim S160000x256 ![] bcast_S_S160000x256 main_cst
  let main_v2 : IVec S160000x256 1 := cmpf .olt main_v0 main_v1
  let main_c : IVec S_ 1 := constantI S_ 1 1#1
  let main_v3 : IVec S_ 1 := (fun x v => Host.reduce IntOp.andi x v reducesTo_S160000x256_S_d0_1 h_S_) main_v2 main_c
  let main_v4 : FVec F S256x500 .f32 := Host.absf main_arg1
  let main_cst_0 : FVec F S_ .f32 := constant S_ .f32 0x7F800000#32
  let main_v5 : FVec F S256x500 .f32 := broadcastInDim S256x500 ![] bcast_S_S256x500 main_cst_0
  let main_v6 : IVec S256x500 1 := cmpf .olt main_v4 main_v5
  let main_c_1 : IVec S_ 1 := constantI S_ 1 1#1
  let main_v7 : IVec S_ 1 := (fun x v => Host.reduce IntOp.andi x v reducesTo_S256x500_S_d0_1 h_S_) main_v6 main_c_1
  let main_v8 : IVec S_ 1 := andi main_v3 main_v7
  let main_v9 : FVec F S500x50 .f32 := Host.absf main_arg2
  let main_cst_2 : FVec F S_ .f32 := constant S_ .f32 0x7F800000#32
  let main_v10 : FVec F S500x50 .f32 := broadcastInDim S500x50 ![] bcast_S_S500x50 main_cst_2
  let main_v11 : IVec S500x50 1 := cmpf .olt main_v9 main_v10
  let main_c_3 : IVec S_ 1 := constantI S_ 1 1#1
  let main_v12 : IVec S_ 1 := (fun x v => Host.reduce IntOp.andi x v reducesTo_S500x50_S_d0_1 h_S_) main_v11 main_c_3
  let main_v13 : IVec S_ 1 := andi main_v8 main_v12
  let main_v14 : FVec F S50x1 .f32 := Host.absf main_arg3
  let main_cst_4 : FVec F S_ .f32 := constant S_ .f32 0x7F800000#32
  let main_v15 : FVec F S50x1 .f32 := broadcastInDim S50x1 ![] bcast_S_S50x1 main_cst_4
  let main_v16 : IVec S50x1 1 := cmpf .olt main_v14 main_v15
  fn_part1 (F := F) main_v13 main_v16
-- ==== Kernel.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S500x256 : Shape := ⟨2, ![500, 256]⟩
abbrev S_ : Shape := ⟨0, ![]⟩
abbrev S512x256 : Shape := ⟨2, ![512, 256]⟩
abbrev S50x500 : Shape := ⟨2, ![50, 500]⟩
abbrev S64x512 : Shape := ⟨2, ![64, 512]⟩
abbrev S1x50 : Shape := ⟨2, ![1, 50]⟩
abbrev S1x64 : Shape := ⟨2, ![1, 64]⟩
abbrev S25x1x6400 : Shape := ⟨3, ![25, 1, 6400]⟩
abbrev S6400x256 : Shape := ⟨2, ![6400, 256]⟩
abbrev S1x1x6400 : Shape := ⟨3, ![1, 1, 6400]⟩
abbrev S6400x512 : Shape := ⟨2, ![6400, 512]⟩
abbrev S64x6400 : Shape := ⟨2, ![64, 6400]⟩
abbrev S1x6400 : Shape := ⟨2, ![1, 6400]⟩
abbrev S160000x1 : Shape := ⟨2, ![160000, 1]⟩

abbrev nBuf : Space → Nat
  | .hbm => 18
  | .vmem => 7
  | .smem => 0
  | _ => 0

abbrev bufTy : (tb : Table) → Fin (tcTables nBuf tb) → BufTy
  | .hbm, ⟨0, _⟩ => ⟨S160000x256, .f32⟩
  | .hbm, ⟨1, _⟩ => ⟨S256x500, .f32⟩
  | .hbm, ⟨2, _⟩ => ⟨S500x50, .f32⟩
  | .hbm, ⟨3, _⟩ => ⟨S50x1, .f32⟩
  | .hbm, ⟨4, _⟩ => ⟨S500x256, .f32⟩
  | .hbm, ⟨5, _⟩ => ⟨S_, .i32⟩
  | .hbm, ⟨6, _⟩ => ⟨S_, .f32⟩
  | .hbm, ⟨7, _⟩ => ⟨S512x256, .f32⟩
  | .hbm, ⟨8, _⟩ => ⟨S50x500, .f32⟩
  | .hbm, ⟨9, _⟩ => ⟨S_, .i32⟩
  | .hbm, ⟨10, _⟩ => ⟨S_, .f32⟩
  | .hbm, ⟨11, _⟩ => ⟨S64x512, .f32⟩
  | .hbm, ⟨12, _⟩ => ⟨S1x50, .f32⟩
  | .hbm, ⟨13, _⟩ => ⟨S_, .i32⟩
  | .hbm, ⟨14, _⟩ => ⟨S_, .f32⟩
  | .hbm, ⟨15, _⟩ => ⟨S1x64, .f32⟩
  | .hbm, ⟨16, _⟩ => ⟨S25x1x6400, .f32⟩
  | .hbm, ⟨17, _⟩ => ⟨S160000x1, .f32⟩
  | .local _ .vmem, ⟨0, _⟩ => ⟨S6400x256, .f32⟩
  | .local _ .vmem, ⟨1, _⟩ => ⟨S6400x256, .f32⟩
  | .local _ .vmem, ⟨2, _⟩ => ⟨S512x256, .f32⟩
  | .local _ .vmem, ⟨3, _⟩ => ⟨S64x512, .f32⟩
  | .local _ .vmem, ⟨4, _⟩ => ⟨S1x64, .f32⟩
  | .local _ .vmem, ⟨5, _⟩ => ⟨S1x1x6400, .f32⟩
  | .local _ .vmem, ⟨6, _⟩ => ⟨S1x1x6400, .f32⟩
  | _, _ => ⟨S160000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x500_S500x256_1_0 : S256x500.Transposes [1, 0] S500x256
  pads_S500x256_S512x256_0120_000 : S500x256.Pads (![0, 0] : Fin 2 → Nat) ![12, 0] ![0, 0] S512x256
  h_S_ : 0 < S_.numel
  transposes_S500x50_S50x500_1_0 : S500x50.Transposes [1, 0] S50x500
  pads_S50x500_S64x512_0140_0120 : S50x500.Pads (![0, 0] : Fin 2 → Nat) ![14, 12] ![0, 0] S64x512
  transposes_S50x1_S1x50_1_0 : S50x1.Transposes [1, 0] S1x50
  pads_S1x50_S1x64_000_0140 : S1x50.Pads (![0, 0] : Fin 2 → Nat) ![0, 14] ![0, 0] S1x64
  inb_S6400x256_S6400x256_0_0 : ∀ a, (![0, 0] : Fin 2 → Nat) a + S6400x256.size a ≤ S6400x256.size a
  h_S6400x256 : 0 < S6400x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x6400_S1x1x6400 : S1x6400.ShapeCasts S1x1x6400
  inb_S1x1x6400_S1x1x6400_0_0_0 : ∀ a, (![0, 0, 0] : Fin 3 → Nat) a + S1x1x6400.size a ≤ S1x1x6400.size a
  h_S1x1x6400 : 0 < S1x1x6400.numel
  shapeCasts_S25x1x6400_S160000x1 : S25x1x6400.ShapeCasts S160000x1
  dot_S6400x256_S512x256_S6400x512_1_1_0_0_n_n_wf : DotDims.WF S6400x256 S512x256 S6400x512 [1] [1] [0] [0] [] []
  dot_S64x512_S6400x512_S64x6400_1_1_0_0_n_n_wf : DotDims.WF S64x512 S6400x512 S64x6400 [1] [1] [0] [0] [] []
  dot_S1x64_S64x6400_S1x6400_1_0_0_1_n_n_wf : DotDims.WF S1x64 S64x6400 S1x6400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S160000x256.size a
  hwx0_0 : ∀ i : grid0.Coords, EltTy.bits .f32 = 32 ∨ (Rect.block (s := S160000x256) S6400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x6400.size a ≤ S25x1x6400.size a
  hwx0_4 : ∀ i : grid0.Coords, EltTy.bits .f32 = 32 ∨ (Rect.block (s := S25x1x6400) S1x1x6400.size (cc0_transform_4 i) (hinb0_4 i)).WholeWords (EltTy.packing .f32)

variable [Facts₀]

def dot_S6400x256_S512x256_S6400x512_1_1_0_0_n_n : DotDims S6400x256 S512x256 S6400x512 where
  lhsContracting := [1]
  rhsContracting := [1]
  lhsNonContracting := [0]
  rhsNonContracting := [0]
  lhsBatch := []
  rhsBatch := []
  wf := dot_S6400x256_S512x256_S6400x512_1_1_0_0_n_n_wf
def dot_S64x512_S6400x512_S64x6400_1_1_0_0_n_n : DotDims S64x512 S6400x512 S64x6400 where
  lhsContracting := [1]
  rhsContracting := [1]
  lhsNonContracting := [0]
  rhsNonContracting := [0]
  lhsBatch := []
  rhsBatch := []
  wf := dot_S64x512_S6400x512_S64x6400_1_1_0_0_n_n_wf
def dot_S1x64_S64x6400_S1x6400_1_0_0_1_n_n : DotDims S1x64 S64x6400 S1x6400 where
  lhsContracting := [1]
  rhsContracting := [0]
  lhsNonContracting := [0]
  rhsNonContracting := [1]
  lhsBatch := []
  rhsBatch := []
  wf := dot_S1x64_S64x6400_S1x6400_1_0_0_1_n_n_wf

abbrev win0_0 : Pipeline.Window sig grid0 :=
  Pipeline.Window.ofSpec (Memref.whole main_arg0) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x6400.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S160000x256 : Shape := ⟨2, ![160000, 256]⟩
abbrev S256x500 : Shape := ⟨2, ![256, 500]⟩
abbrev S500x50 : Shape := ⟨2, ![500, 50]⟩
abbrev S50x1 : Shape := ⟨2, ![50, 1]⟩
abbrev S160000x500 : Shape := ⟨2, ![160000, 500]⟩
abbrev S_ : Shape := ⟨0, ![]⟩
abbrev S160000x50 : Shape := ⟨2, ![160000, 50]⟩
abbrev S160000x1 : Shape := ⟨2, ![160000, 1]⟩

abbrev nBuf : Space → Nat
  | .hbm => 13
  | .vmem => 0
  | .smem => 0
  | _ => 0

abbrev bufTy : (tb : Table) → Fin (tcTables nBuf tb) → BufTy
  | .hbm, ⟨0, _⟩ => ⟨S160000x256, .f32⟩
  | .hbm, ⟨1, _⟩ => ⟨S256x500, .f32⟩
  | .hbm, ⟨2, _⟩ => ⟨S500x50, .f32⟩
  | .hbm, ⟨3, _⟩ => ⟨S50x1, .f32⟩
  | .hbm, ⟨4, _⟩ => ⟨S160000x500, .f32⟩
  | .hbm, ⟨5, _⟩ => ⟨S_, .f32⟩
  | .hbm, ⟨6, _⟩ => ⟨S160000x500, .f32⟩
  | .hbm, ⟨7, _⟩ => ⟨S160000x500, .f32⟩
  | .hbm, ⟨8, _⟩ => ⟨S160000x50, .f32⟩
  | .hbm, ⟨9, _⟩ => ⟨S_, .f32⟩
  | .hbm, ⟨10, _⟩ => ⟨S160000x50, .f32⟩
  | .hbm, ⟨11, _⟩ => ⟨S160000x50, .f32⟩
  | .hbm, ⟨12, _⟩ => ⟨S160000x1, .f32⟩
  | _, _ => ⟨S160000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S_S160000x500 : S_.BroadcastsInDim S160000x500 (![] : Fin 0 → Fin S160000x500.rank)
  bcast_S_S160000x50 : S_.BroadcastsInDim S160000x50 (![] : Fin 0 → Fin S160000x50.rank)
  dot_S160000x256_S256x500_S160000x500_1_0_0_1_n_n_wf : DotDims.WF S160000x256 S256x500 S160000x500 [1] [0] [0] [1] [] []
  dot_S160000x500_S500x50_S160000x50_1_0_0_1_n_n_wf : DotDims.WF S160000x500 S500x50 S160000x50 [1] [0] [0] [1] [] []
  dot_S160000x50_S50x1_S160000x1_1_0_0_1_n_n_wf : DotDims.WF S160000x50 S50x1 S160000x1 [1] [0] [0] [1] [] []

variable [Facts₀]

def dot_S160000x256_S256x500_S160000x500_1_0_0_1_n_n : DotDims S160000x256 S256x500 S160000x500 where
  lhsContracting := [1]
  rhsContracting := [0]
  lhsNonContracting := [0]
  rhsNonContracting := [1]
  lhsBatch := []
  rhsBatch := []
  wf := dot_S160000x256_S256x500_S160000x500_1_0_0_1_n_n_wf
def dot_S160000x500_S500x50_S160000x50_1_0_0_1_n_n : DotDims S160000x500 S500x50 S160000x50 where
  lhsContracting := [1]
  rhsContracting := [0]
  lhsNonContracting := [0]
  rhsNonContracting := [1]
  lhsBatch := []
  rhsBatch := []
  wf := dot_S160000x500_S500x50_S160000x50_1_0_0_1_n_n_wf
def dot_S160000x50_S50x1_S160000x1_1_0_0_1_n_n : DotDims S160000x50 S50x1 S160000x1 where
  lhsContracting := [1]
  rhsContracting := [0]
  lhsNonContracting := [0]
  rhsNonContracting := [1]
  lhsBatch := []
  rhsBatch := []
  wf := dot_S160000x50_S50x1_S160000x1_1_0_0_1_n_n_wf

class Facts : Prop extends Facts₀ where

variable [Facts]
-- ==== Proof.Spec.lean ====
/-
  The three-layer perceptron as ONE function of the four argument arrays, on the extended reals:

    out n = ∑ j < 50, max (∑ k < 500, max (∑ i < 256, E (n, i) · w1 (i, k)) 0 · w2 (k, j)) 0 · w3 (j, 0).

  Beside it the arrangement a fused kernel computes: each weight matrix transposed and padded with zeros up to whole
  lane groups (`padT`), the hidden widths 500 and 50 widened to 512 and 64, and each product written weight first.
  The two are equal on ALL extended reals (`fused_eq`): a padded term is `0 · x`, which is `0` whatever `x` is, so it
  drops out of its sum (`sum_pad`); what is left differs by the order of each product's two factors. No entry need
  be finite.
-/
import Idealize.ShloMosaic.PureOps.Ideal.Laws
import Idealize.ShloMosaic.Lib.ValueIdx

noncomputable section

open scoped BigOperators

namespace Cert.Mlp

open Idealize.ShloMosaic Idealize.ShloMosaic.ValueIdx

/-- A matrix of extended reals. -/
abbrev Arr (a b : ℕ) : Type := (⟨2, ![a, b]⟩ : Shape).Idx → EReal

/-! ## The function -/

/-- The first hidden layer: row `n` of `E` against column `k` of `w1`, rectified. -/
def layer1 (E : Arr 160000 256) (w1 : Arr 256 500) (n : Fin 160000) (k : Fin 500) : EReal :=
  max (∑ i : Fin 256, E (ix2 n i) * w1 (ix2 i k)) 0

/-- The second hidden layer: row `n` of the first against column `j` of `w2`, rectified. -/
def layer2 (E : Arr 160000 256) (w1 : Arr 256 500) (w2 : Arr 500 50) (n : Fin 160000) (j : Fin 50) : EReal :=
  max (∑ k : Fin 500, layer1 E w1 n k * w2 (ix2 k j)) 0

/-- The output at row `n`: the second hidden layer against the one column of `w3`. -/
def out (E : Arr 160000 256) (w1 : Arr 256 500) (w2 : Arr 500 50) (w3 : Arr 50 1) (n : Fin 160000) : EReal :=
  ∑ j : Fin 50, layer2 E w1 w2 n j * w3 (ix2 j 0)

/-- The result array `[160000, 1]`. -/
def mlp (E : Arr 160000 256) (w1 : Arr 256 500) (w2 : Arr 500 50) (w3 : Arr 50 1) : Arr 160000 1 :=
  fun i => out E w1 w2 w3 (i 0)

/-! ## A sum whose tail is zero -/

/-- A sum over `N` positions whose terms from position `n` on are zero is the sum over the first `n`. -/
theorem sum_pad {M : Type*} [AddCommMonoid M] {n N : ℕ} (h : n ≤ N) (f : Fin N → M)
    (hz : ∀ k : Fin N, n ≤ k.val → f k = 0) : ∑ k : Fin N, f k = ∑ k : Fin n, f (Fin.castLE h k) := by
  have e : ∑ k : Fin n, f (Fin.castLE h k) = ∑ k ∈ Finset.univ.map (Fin.castLEEmb h), f k :=
    (Finset.sum_map Finset.univ (Fin.castLEEmb h) f).symm
  rw [e]
  symm
  refine Finset.sum_subset (Finset.subset_univ _) fun k _ hk => hz k ?_
  by_contra hlt
  exact hk (Finset.mem_map.mpr ⟨⟨k.val, Nat.lt_of_not_le hlt⟩, Finset.mem_univ _, Fin.ext rfl⟩)

/-! ## A matrix transposed and padded with zeros -/

/-- `w : [a, b]` transposed and padded with zeros to `[B, A]`: at `(q, p)` it is `w (p, q)` inside, `0` outside. -/
def padT {a b : ℕ} (w : Arr a b) (B A : ℕ) : Arr B A := fun i =>
  if h : (i 1).val < a ∧ (i 0).val < b then w (ix2 ⟨(i 1).val, h.1⟩ ⟨(i 0).val, h.2⟩) else 0

theorem padT_inside {a b : ℕ} (w : Arr a b) {B A : ℕ} (q : Fin B) (p : Fin A) (hp : p.val < a) (hq : q.val < b) :
    padT w B A (ix2 q p) = w (ix2 ⟨p.val, hp⟩ ⟨q.val, hq⟩) := by
  unfold padT
  rw [dif_pos (show ((ix2 q p) 1).val < a ∧ ((ix2 q p) 0).val < b from ⟨hp, hq⟩)]
  rfl

theorem padT_outside {a b : ℕ} (w : Arr a b) {B A : ℕ} (q : Fin B) (p : Fin A) (h : ¬(p.val < a ∧ q.val < b)) :
    padT w B A (ix2 q p) = 0 := by
  unfold padT
  rw [dif_neg (show ¬(((ix2 q p) 1).val < a ∧ ((ix2 q p) 0).val < b) from h)]

/-! ## The fused arrangement -/

/-- The fused arrangement at row `n`, over the padded transposes. -/
def fused (E : Arr 160000 256) (w1 : Arr 256 500) (w2 : Arr 500 50) (w3 : Arr 50 1) (n : Fin 160000) : EReal :=
  ∑ j : Fin 64, padT w3 1 64 (ix2 0 j) *
    max (∑ k : Fin 512, padT w2 64 512 (ix2 j k) * max (∑ i : Fin 256, E (ix2 n i) * padT w1 512 256 (ix2 k i)) 0) 0

/-- The fused arrangement is the perceptron: the padded terms are `0 · x = 0`, the rest is each product's two
    factors exchanged. -/
theorem fused_eq (E : Arr 160000 256) (w1 : Arr 256 500) (w2 : Arr 500 50) (w3 : Arr 50 1) (n : Fin 160000) :
    fused E w1 w2 w3 n = out E w1 w2 w3 n := by
  unfold fused out
  rw [sum_pad (show 50 ≤ 64 by norm_num) _ (fun j hj => by
    rw [padT_outside w3 (0 : Fin 1) j (fun h => by omega), zero_mul])]
  refine Finset.sum_congr rfl fun j _ => ?_
  rw [padT_inside w3 (0 : Fin 1) (Fin.castLE (show 50 ≤ 64 by norm_num) j) j.isLt Nat.one_pos, mul_comm]
  congr 1
  unfold layer2
  congr 1
  rw [sum_pad (show 500 ≤ 512 by norm_num) _ (fun k hk => by
    rw [padT_outside w2 (Fin.castLE (show 50 ≤ 64 by norm_num) j) k (fun h => by omega), zero_mul])]
  refine Finset.sum_congr rfl fun k _ => ?_
  rw [padT_inside w2 (Fin.castLE (show 50 ≤ 64 by norm_num) j) (Fin.castLE (show 500 ≤ 512 by norm_num) k) k.isLt j.isLt,
    mul_comm]
  congr 1
  unfold layer1
  congr 1
  refine Finset.sum_congr rfl fun i _ => ?_
  rw [padT_inside w1 (Fin.castLE (show 500 ≤ 512 by norm_num) k) i i.isLt k.isLt]
  rfl

end Cert.Mlp

end
-- ==== Proof.RefSpec.lean ====
/-
  The reference computes the perceptron: its three general dot products, each contracting the left operand's second
  axis with the right operand's first, are the three sums of `Cert.Mlp`, and its two `maximum`s against a broadcast
  zero constant are the two rectifications. Read index by index, outermost operation first.
-/
import proofs.«122301_g30520037605946_cont_9to1_2283_15_alg».proof.Proof.Gen.ReferenceIdeal.Read
import proofs.«122301_g30520037605946_cont_9to1_2283_15_alg».proof.Proof.Spec

noncomputable section

open scoped BigOperators

namespace Cert.RefSpec

open Cert.ReferenceIdeal Cert.ReferenceIdeal.Read Idealize.ShloMosaic Idealize.ShloMosaic.ValueIdx Cert.Mlp

/-- The first rectification's constant operand is zero everywhere. -/
theorem zero_v0 (i : S160000x500.Idx) : val_main_call0_v0 (F := Ideal) i = (0 : EReal) := by
  rw [val_main_call0_v0_apply, val_main_call0_cst_apply, Ideal.ofBits_def, Ideal.ofBits_zero_f32]

/-- The second rectification's constant operand is zero everywhere. -/
theorem zero_v1 (i : S160000x50.Idx) : val_main_call1_v0 (F := Ideal) i = (0 : EReal) := by
  rw [val_main_call1_v0_apply, val_main_call1_cst_apply, Ideal.ofBits_def, Ideal.ofBits_zero_f32]

/-- The reference's first rectified product at `(n, k)` is the first hidden layer. -/
theorem v1_at (x0 : FVec Ideal S160000x256 .f32) (x1 : FVec Ideal S256x500 .f32) (n : Fin 160000) (k : Fin 500) :
    val_main_v1 (F := Ideal) x0 x1 (ix2 n k) = layer1 x0 x1 n k := by
  rw [val_main_v1_apply, val_main_v0_apply, zero_v0, Ideal.maximumf_def]
  unfold layer1
  refine congrArg (fun s => max s (0 : EReal)) (Finset.sum_congr rfl fun i _ => ?_)
  have e1 : lidx_main_v0 (ix2 n k) i = ix2 n i :=
    funext fun a => Fin.ext (by match a with | ⟨0, _⟩ => rfl | ⟨1, _⟩ => rfl)
  have e2 : ridx_main_v0 (ix2 n k) i = ix2 i k :=
    funext fun a => Fin.ext (by match a with | ⟨0, _⟩ => rfl | ⟨1, _⟩ => rfl)
  rw [e1, e2]

/-- The reference's second rectified product at `(n, j)` is the second hidden layer. -/
theorem v3_at (x0 : FVec Ideal S160000x256 .f32) (x1 : FVec Ideal S256x500 .f32) (x2 : FVec Ideal S500x50 .f32)
    (n : Fin 160000) (j : Fin 50) : val_main_v3 (F := Ideal) x0 x1 x2 (ix2 n j) = layer2 x0 x1 x2 n j := by
  rw [val_main_v3_apply, val_main_v2_apply, zero_v1, Ideal.maximumf_def]
  unfold layer2
  refine congrArg (fun s => max s (0 : EReal)) (Finset.sum_congr rfl fun k _ => ?_)
  have e1 : lidx_main_v2 (ix2 n j) k = ix2 n k :=
    funext fun a => Fin.ext (by match a with | ⟨0, _⟩ => rfl | ⟨1, _⟩ => rfl)
  have e2 : ridx_main_v2 (ix2 n j) k = ix2 k j :=
    funext fun a => Fin.ext (by match a with | ⟨0, _⟩ => rfl | ⟨1, _⟩ => rfl)
  rw [e1, e2, v1_at]

/-- The reference's result array is the perceptron of its four arguments. -/
theorem result_eq (x0 : FVec Ideal S160000x256 .f32) (x1 : FVec Ideal S256x500 .f32) (x2 : FVec Ideal S500x50 .f32)
    (x3 : FVec Ideal S50x1 .f32) : val_main_v4 (F := Ideal) x0 x1 x2 x3 = mlp x0 x1 x2 x3 := by
  funext i
  obtain ⟨n, u, rfl⟩ : ∃ (n : Fin 160000) (u : Fin 1), i = ix2 n u := ⟨i 0, i 1, eq_ix2 i⟩
  obtain rfl : u = 0 := Subsingleton.elim _ _
  rw [val_main_v4_apply]
  unfold mlp out
  refine Finset.sum_congr rfl fun j _ => ?_
  have e1 : lidx_main_v4 (ix2 n (0 : Fin 1)) j = ix2 n j :=
    funext fun a => Fin.ext (by match a with | ⟨0, _⟩ => rfl | ⟨1, _⟩ => rfl)
  have e2 : ridx_main_v4 (ix2 n (0 : Fin 1)) j = ix2 j (0 : Fin 1) :=
    funext fun a => Fin.ext (by match a with | ⟨0, _⟩ => rfl | ⟨1, _⟩ => rfl)
  rw [e1, e2, v3_at]

end Cert.RefSpec

end
-- ==== Proof.LibDot.lean ====
/-
  A two-axis matrix product read at an index, at the extended reals. For dimension numbers that contract the
  left operand's second axis with the right operand's first and have no batch axis, the kernel's matrix product into
  a zero accumulator and the host's general dot product are both, at row `p` and column `q`, the sum over the
  contracted coordinate `k` of the left operand at `(p, k)` times the right operand at `(k, q)`.
-/
import Idealize.ShloMosaic.PureOps.Ideal.Laws
import Idealize.ShloMosaic.Lib.ValueIdx

noncomputable section

open scoped BigOperators

namespace Cert.LibDot

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![K, B]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's index has the output's column. -/
theorem rhsIdx_col (d : DotDims ⟨2, ![A, K]⟩ ⟨2, ![K, B]⟩ ⟨2, ![A, B]⟩)
    (hlb : d.lhsBatch = []) (hln : d.lhsNonContracting = [0])
    (hrb : d.rhsBatch = []) (hrn : d.rhsNonContracting = [1])
    (j : (⟨2, ![A, B]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    ∑ k : d.contr.Idx, l (d.lhsIdx (ix2 p q) k) * r (d.rhsIdx (ix2 p q) k) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhsIdx_col d hlb hln hrb hrn _ _)
  rw [el, er]

/-- The kernel's matrix product into a zero accumulator, at `(p, q)`. -/
theorem matmul_zero_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q) = ∑ k : Fin K, l (ix2 p k) * r (ix2 k q) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![K, B]⟩ ⟨2, ![A, B]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (l : FVec Ideal ⟨2, ![A, K]⟩ φ₁) (r : FVec Ideal ⟨2, ![K, B]⟩ φ₂) (p : Fin A) (q : Fin B) :
    Host.dotGeneral d prec l r (ix2 p q) = ∑ k : Fin K, l (ix2 p k) * r (ix2 k q) := by
  simp only [Host.dotGeneral]
  rw [Ideal.dotGeneral_apply]
  exact plain_sum d hlb hln hlc hrb hrn hrc hr hs l r p q

end Cert.LibDot

end
-- ==== Proof.LibDotT.lean ====
/-
  A matrix product whose right operand is stored transposed, read at an index, at the extended reals. For dimension
  numbers that contract the second axis of BOTH operands and have no batch axis — an `[A, K]` array against a
  `[B, K]` array into `[A, B]` — the kernel's matrix product into a zero accumulator and the host's general dot
  product are both, at row `p` and column `q`, the sum over the contracted coordinate `k` of the left operand at
  `(p, k)` times the right operand at `(q, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![B, K]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's FIRST axis has the output's column. -/
theorem rhsIdx_row (d : DotDims ⟨2, ![A, K]⟩ ⟨2, ![B, K]⟩ ⟨2, ![A, B]⟩)
    (hlb : d.lhsBatch = []) (hln : d.lhsNonContracting = [0])
    (hrb : d.rhsBatch = []) (hrn : d.rhsNonContracting = [0])
    (j : (⟨2, ![A, B]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    ∑ k : d.contr.Idx, l (d.lhsIdx (ix2 p q) k) * r (d.rhsIdx (ix2 p q) k) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhsIdx_row d hlb hln hrb hrn _ _
    | ⟨1, _⟩ => exact (d.rhsIdx_val_of_single hrc _ _).trans hk)
  rw [el, er]

/-- The kernel's matrix product into a zero accumulator, at `(p, q)`. -/
theorem matmul_zero_apply (d : DotDims ⟨2, ![A, K]⟩ ⟨2, ![B, K]⟩ ⟨2, ![A, B]⟩) (prec : Option ContractPrecision)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    matmul d prec l r (constant (F := Ideal) ⟨2, ![A, B]⟩ .f32 0x00000000#32) (ix2 p q) = ∑ k : Fin K, l (ix2 p k) * r (ix2 q k) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![B, K]⟩ ⟨2, ![A, B]⟩) (prec : Option ContractPrecision)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    Host.dotGeneral d prec l r (ix2 p q) = ∑ k : Fin K, l (ix2 p k) * r (ix2 q k) := by
  simp only [Host.dotGeneral]
  rw [Ideal.dotGeneral_apply]
  exact plain_sum d hlb hln hlc hrb hrn hrc hr hs l r p q

end Cert.LibDotT

end
-- ==== Proof.Payload.lean ====
/-
  What the kernel body stores, read at an index. The body takes a block of 6400 rows of `E` and the three padded,
  transposed weight matrices whole; it forms `relu (E_blk · W1ᵀ)` as `[6400, 512]`, then `relu (W2 · hᵀ)` as
  `[64, 6400]` (the hidden layer transposed, rows along the lanes), then `W3 · that` as one row `[1, 6400]`, and stores
  the row reshaped to `[1, 1, 6400]`. At the extended reals a change of float format is the identity, a matrix
  product into a zero accumulator is a plain sum, and the rectification is `max · 0`: entry `p` of the stored row is

    ∑ j < 64, W3 (0, j) · max (∑ k < 512, W2 (j, k) · max (∑ i < 256, E_blk (p, i) · W1 (k, i)) 0) 0.
-/
import proofs.«122301_g30520037605946_cont_9to1_2283_15_alg».proof.Proof.Gen.KernelIdeal.Skeleton
import proofs.«122301_g30520037605946_cont_9to1_2283_15_alg».proof.Proof.LibDot
import proofs.«122301_g30520037605946_cont_9to1_2283_15_alg».proof.Proof.LibDotT
import Idealize.ShloMosaic.Lib.ValueLayout
import Idealize.ShloMosaic.Lib.Pipeline.Value

noncomputable section

open scoped BigOperators

namespace Cert.Payload

open Cert.KernelIdeal Cert.KernelIdeal.Gen Idealize.ShloMosaic Idealize.ShloMosaic.ValueIdx

/-- The half-precision zero pattern denotes zero. -/
theorem bf16_zero : Scalar.ofBits (F := Ideal) .bf16 0x0000#16 = (0 : EReal) := by
  show Ideal.ofBits .bf16 0x0000#16 = 0
  simp [Ideal.ofBits, Ideal.ieee]

/-- The first hidden layer of a block, at row `p` and (padded) unit `k`. -/
theorem stage1_at (x0 : FVec Ideal S6400x256 .f32) (x1 : FVec Ideal S512x256 .f32)
    (hb : FTy.bits .bf16 < FTy.bits .f32) (hc : S512x256.ShapeCasts S512x256) (p : Fin 6400) (k : Fin 512) :
    maximumf (truncf .bf16 (matmul dot_S6400x256_S512x256_S6400x512_1_1_0_0_n_n none (truncf .bf16 x0 hb)
        (truncf .bf16 (shapeCast S512x256 x1 hc) hb) (constant (F := Ideal) S6400x512 .f32 0x00000000#32)) hb)
      (broadcast S6400x512 (Scalar.ofBits (F := Ideal) .bf16 0x0000#16)) (ix2 p k)
      = max (∑ i : Fin 256, x0 (ix2 p i) * x1 (ix2 k i)) (0 : EReal) := by
  rw [maximumf_apply, truncf_apply, broadcast_apply, bf16_zero, shapeCast_self]
  refine congrArg (fun s => max s (0 : EReal)) ?_
  exact LibDotT.matmul_zero_apply dot_S6400x256_S512x256_S6400x512_1_1_0_0_n_n none rfl rfl rfl rfl rfl rfl rfl rfl
    (truncf .bf16 x0 hb) (truncf .bf16 x1 hb) p k

/-- The second hidden layer of a block, transposed: at (padded) unit `j` and row `p`, from the first. -/
theorem stage2_at (x2 : FVec Ideal S64x512 .f32) (h1 : FVec Ideal S6400x512 .bf16)
    (hb : FTy.bits .bf16 < FTy.bits .f32) (hc : S64x512.ShapeCasts S64x512) (j : Fin 64) (p : Fin 6400) :
    maximumf (truncf .bf16 (matmul dot_S64x512_S6400x512_S64x6400_1_1_0_0_n_n none
        (truncf .bf16 (shapeCast S64x512 x2 hc) hb) h1 (constant (F := Ideal) S64x6400 .f32 0x00000000#32)) hb)
      (broadcast S64x6400 (Scalar.ofBits (F := Ideal) .bf16 0x0000#16)) (ix2 j p)
      = max (∑ k : Fin 512, x2 (ix2 j k) * h1 (ix2 p k)) (0 : EReal) := by
  rw [maximumf_apply, truncf_apply, broadcast_apply, bf16_zero, shapeCast_self]
  refine congrArg (fun s => max s (0 : EReal)) ?_
  exact LibDotT.matmul_zero_apply dot_S64x512_S6400x512_S64x6400_1_1_0_0_n_n none rfl rfl rfl rfl rfl rfl rfl rfl
    (truncf .bf16 x2 hb) h1 j p

/-- The output row of a block, at entry `p`, from the second hidden layer. -/
theorem stage3_at (x3 : FVec Ideal S1x64 .f32) (h2 : FVec Ideal S64x6400 .bf16)
    (hb : FTy.bits .bf16 < FTy.bits .f32) (hc : S1x64.ShapeCasts S1x64) (hr : S1x6400.ShapeCasts S1x1x6400)
    (p : Fin 6400) :
    shapeCast S1x1x6400 (matmul dot_S1x64_S64x6400_S1x6400_1_0_0_1_n_n none
        (truncf .bf16 (shapeCast S1x64 x3 hc) hb) h2 (constant (F := Ideal) S1x6400 .f32 0x00000000#32)) hr
      (ix3 (0 : Fin 1) (0 : Fin 1) p)
      = ∑ j : Fin 64, x3 (ix2 (0 : Fin 1) j) * h2 (ix2 j p) := by
  rw [shapeCast_ab_1ab_apply, shapeCast_self]
  exact LibDot.matmul_zero_apply dot_S1x64_S64x6400_S1x6400_1_0_0_1_n_n none rfl rfl rfl rfl rfl rfl rfl rfl
    (truncf .bf16 x3 hb) h2 (0 : Fin 1) p

/-- The stored row at entry `p`, as a function of the four loaded blocks. -/
theorem pay_at (x0 : Vec Ideal S6400x256 .f32) (x1 : Vec Ideal S512x256 .f32) (x2 : Vec Ideal S64x512 .f32)
    (x3 : Vec Ideal S1x64 .f32) (p : Fin 6400) :
    k0_pay1 (F := Ideal) x0 x1 x2 x3 (ix3 (0 : Fin 1) (0 : Fin 1) p)
      = ∑ j : Fin 64, x3 (ix2 (0 : Fin 1) j) *
          max (∑ k : Fin 512, x2 (ix2 j k) * max (∑ i : Fin 256, x0 (ix2 p i) * x1 (ix2 k i)) (0 : EReal)) (0 : EReal) := by
  unfold k0_pay1
  refine (stage3_at x3 _ _ _ _ p).trans ?_
  refine Finset.sum_congr rfl fun j _ => congrArg (fun s => x3 (ix2 (0 : Fin 1) j) * s) ?_
  refine (stage2_at x2 _ _ _ j p).trans ?_
  refine congrArg (fun s => max s (0 : EReal)) (Finset.sum_congr rfl fun k _ => congrArg (fun s => x2 (ix2 j k) * s) ?_)
  exact stage1_at x0 x1 _ _ p k

end Cert.Payload

end
-- ==== Proof.PadT.lean ====
/-
  The host's `pad` of a `transpose` is `Cert.Mlp.padT`: a matrix `w : [a, b]` transposed to `[b, a]` and padded on the
  high side of both axes, with no interior padding and a padding value that is zero, reads at `(q, p)` the entry
  `w (p, q)` when `p < a` and `q < b`, and zero otherwise.
-/
import proofs.«122301_g30520037605946_cont_9to1_2283_15_alg».proof.Proof.Spec
import Idealize.ShloMosaic.Lib.KernelVsHost
import Idealize.ShloMosaic.Lib.ValueLayout

noncomputable section

namespace Cert.PadT

open Idealize.ShloMosaic Idealize.ShloMosaic.ValueIdx Cert.Mlp

theorem pad_transpose_eq {a b A B : ℕ} (w : Arr a b) (hi : Fin 2 → ℕ)
    (ht : (⟨2, ![a, b]⟩ : Shape).Transposes [1, 0] ⟨2, ![b, a]⟩)
    (hp : (⟨2, ![b, a]⟩ : Shape).Pads (![0, 0] : Fin 2 → ℕ) hi ![0, 0] ⟨2, ![B, A]⟩)
    (v : (⟨0, ![]⟩ : Shape).Idx → EReal) (hu : 0 < (⟨0, ![]⟩ : Shape).numel) (hv : ∀ i, v i = 0) :
    pad ⟨2, ![B, A]⟩ ![0, 0] hi ![0, 0] (transpose ⟨2, ![b, a]⟩ [1, 0] w ht) v hp hu = padT w B A := by
  funext i
  obtain ⟨q, p, rfl⟩ : ∃ (q : Fin B) (p : Fin A), i = ix2 q p := ⟨i 0, i 1, eq_ix2 i⟩
  by_cases h : p.val < a ∧ q.val < b
  · rw [padT_inside w q p h.1 h.2]
    refine (pad_apply_of_inside _ _ _ _ v hp hu (ix2 q p) (ix2 ⟨q.val, h.2⟩ ⟨p.val, h.1⟩) ?_).trans
      (transpose_ix2_apply w ht ⟨q.val, h.2⟩ ⟨p.val, h.1⟩)
    intro ax
    match ax with
    | ⟨0, _⟩ => show q.val = 0 + q.val * (0 + 1); omega
    | ⟨1, _⟩ => show p.val = 0 + p.val * (0 + 1); omega
  · rw [padT_outside w q p h]
    by_cases hq : q.val < b
    · have hp' : ¬ p.val < a := fun hp' => h ⟨hp', hq⟩
      refine (pad_apply_of_not_inside _ _ _ _ v hp hu (ix2 q p) (1 : Fin 2) ?_).trans (hv _)
      show ¬(0 ≤ p.val ∧ (p.val - 0) % (0 + 1) = 0 ∧ (p.val - 0) / (0 + 1) < a)
      rintro ⟨_, _, h3⟩
      exact hp' (by simpa using h3)
    · refine (pad_apply_of_not_inside _ _ _ _ v hp hu (ix2 q p) (0 : Fin 2) ?_).trans (hv _)
      show ¬(0 ≤ q.val ∧ (q.val - 0) % (0 + 1) = 0 ∧ (q.val - 0) / (0 + 1) < b)
      rintro ⟨_, _, h3⟩
      exact hq (by simpa using h3)

end Cert.PadT

end
-- ==== Proof.Weights.lean ====
/-
  The weight arrays as the kernel region finds them. Before the region the host transposes each weight matrix and
  pads it with the integer constant `0` converted to a float — zero — up to whole lane groups: `[512, 256]` from `w1`,
  `[64, 512]` from `w2`, `[1, 64]` from `w3`. Each is `Cert.Mlp.padT` of the argument array.
-/
import proofs.«122301_g30520037605946_cont_9to1_2283_15_alg».proof.Proof.Gen.KernelIdeal.Frame
import proofs.«122301_g30520037605946_cont_9to1_2283_15_alg».proof.Proof.PadT
import Idealize.ShloMosaic.Lib.StableHlo.Run

noncomputable section

namespace Cert.Weights

open Cert.KernelIdeal Cert.KernelIdeal.Gen Idealize.ShloMosaic Idealize.ShloMosaic.TcCoe Idealize.SL.Sem
open Idealize.ShloMosaic.StableHlo Idealize.ShloMosaic.ValueIdx Cert.Mlp

variable (m : (ℓ : Loc nD τ sig) → Buf (Elt Ideal) ℓ)

/-- The padding value: the integer zero converted to a float is zero. -/
theorem padval (i : S_.Idx) : (sitofp (F := Ideal) .f32 (constantI S_ 32 0#32) : S_.Idx → EReal) i = 0 := by
  rw [sitofp_apply, constantI_apply]
  exact sitofp_zero

/-- The first weight array at the region's entry. -/
theorem V_w1 (c : Dev nD) :
    (V m c main_v1 : S512x256.Idx → EReal) = padT (m ((c : Thread nD τ).loc main_arg1)) 512 256 := by
  have e : (V m c main_v1 : S512x256.Idx → EReal)
      = pad S512x256 ![0, 0] ![12, 0] ![0, 0]
          (transpose S500x256 [1, 0] (m ((c : Thread nD τ).loc main_arg1)) transposes_S256x500_S500x256_1_0)
          (sitofp (F := Ideal) .f32 (constantI S_ 32 0#32)) pads_S500x256_S512x256_0120_000 h_S_ := by
    dsimp only [Gen.V, Gen.V0]
    simp only [hostOps0, hostOps0_1, hostOps0_2, hostOps0_3, hostOps0_4, hostOps0_5, List.flatten_cons, List.flatten_nil,
      List.append_nil, List.cons_append, List.nil_append]
    after_results
    rfl
  rw [e]
  exact PadT.pad_transpose_eq _ _ _ _ _ _ padval

/-- The second weight array at the region's entry. -/
theorem V_w2 (c : Dev nD) :
    (V m c main_v3 : S64x512.Idx → EReal) = padT (m ((c : Thread nD τ).loc main_arg2)) 64 512 := by
  have e : (V m c main_v3 : S64x512.Idx → EReal)
      = pad S64x512 ![0, 0] ![14, 12] ![0, 0]
          (transpose S50x500 [1, 0] (m ((c : Thread nD τ).loc main_arg2)) transposes_S500x50_S50x500_1_0)
          (sitofp (F := Ideal) .f32 (constantI S_ 32 0#32)) pads_S50x500_S64x512_0140_0120 h_S_ := by
    dsimp only [Gen.V, Gen.V0]
    simp only [hostOps0, hostOps0_1, hostOps0_2, hostOps0_3, hostOps0_4, hostOps0_5, List.flatten_cons, List.flatten_nil,
      List.append_nil, List.cons_append, List.nil_append]
    after_results
    rfl
  rw [e]
  exact PadT.pad_transpose_eq _ _ _ _ _ _ padval

/-- The third weight array at the region's entry. -/
theorem V_w3 (c : Dev nD) :
    (V m c main_v5 : S1x64.Idx → EReal) = padT (m ((c : Thread nD τ).loc main_arg3)) 1 64 := by
  have e : (V m c main_v5 : S1x64.Idx → EReal)
      = pad S1x64 ![0, 0] ![0, 14] ![0, 0]
          (transpose S1x50 [1, 0] (m ((c : Thread nD τ).loc main_arg3)) transposes_S50x1_S1x50_1_0)
          (sitofp (F := Ideal) .f32 (constantI S_ 32 0#32)) pads_S1x50_S1x64_000_0140 h_S_ := by
    dsimp only [Gen.V, Gen.V0]
    simp only [hostOps0, hostOps0_1, hostOps0_2, hostOps0_3, hostOps0_4, hostOps0_5, List.flatten_cons, List.flatten_nil,
      List.append_nil, List.cons_append, List.nil_append]
    after_results
    rfl
  rw [e]
  exact PadT.pad_transpose_eq _ _ _ _ _ _ padval

end Cert.Weights

end
-- ==== Proof.Blocks.lean ====
/-
  From blocks to the array. Grid point `t` (of 25) is handed rows `6400·t … 6400·t + 6399` of `E` and the three padded
  weight arrays whole, and writes back block `(t, 0, 0)` of the `[25, 1, 6400]` result: entry `p` of its row is the
  perceptron at row `6400·t + p` of `E` (the body's payload read at an index, the padded arrangement brought back
  to the plain one by `Cert.Mlp.fused_eq`). The 25 blocks tile the result array, so after the run it holds

    tiled (t, 0, p) = out (6400·t + p)

  everywhere.
-/
import proofs.«122301_g30520037605946_cont_9to1_2283_15_alg».proof.Proof.Gen.KernelIdeal.Frame
import proofs.«122301_g30520037605946_cont_9to1_2283_15_alg».proof.Proof.Payload
import proofs.«122301_g30520037605946_cont_9to1_2283_15_alg».proof.Proof.Weights
import Idealize.ShloMosaic.Lib.Pipeline.Value

set_option maxRecDepth 16384

noncomputable section

namespace Cert.Blocks

open Cert.KernelIdeal Cert.KernelIdeal.Gen Idealize.ShloMosaic Idealize.ShloMosaic.TcCoe Idealize.SL.Sem
open Idealize.ShloMosaic.ValueIdx Cert.Mlp
open Idealize.ShloMosaic.Pipeline (Dat Cfg Window)

variable (m : (ℓ : Loc nD τ sig) → Buf (Elt Ideal) ℓ)

/-- The perceptron's result laid out as the kernel writes it: `[25, 1, 6400]`, row `6400·t + p` at `(t, 0, p)`. -/
def tiled (E : Arr 160000 256) (w1 : Arr 256 500) (w2 : Arr 500 50) (w3 : Arr 50 1) : S25x1x6400.Idx → EReal := fun i =>
  out E w1 w2 w3 ⟨(i 0).val * 6400 + (i 2).val, by
    have h0 : (i 0).val < 25 := (i 0).isLt
    have h2 : (i 2).val < 6400 := (i 2).isLt
    omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the block of `E` and the block of the result move with the point,
    the weights' blocks stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The body's stored row, from blocks that are the rows `6400·t …` of `E` and the padded weights. -/
theorem block_at (E : Arr 160000 256) (w1 : Arr 256 500) (w2 : Arr 500 50) (w3 : Arr 50 1)
    (x0 : Vec Ideal S6400x256 .f32) (x1 : Vec Ideal S512x256 .f32) (x2 : Vec Ideal S64x512 .f32) (x3 : Vec Ideal S1x64 .f32)
    (t : ℕ) (ht : t < 25)
    (h0 : ∀ (p : Fin 6400) (i : Fin 256), x0 (ix2 p i) = E (ix2 ⟨t * 6400 + p.val, by have := p.isLt; omega⟩ i))
    (h1 : x1 = padT w1 512 256) (h2 : x2 = padT w2 64 512) (h3 : x3 = padT w3 1 64) (y : S1x1x6400.Idx) :
    k0_pay1 (F := Ideal) x0 x1 x2 x3 y
      = out E w1 w2 w3 ⟨t * 6400 + (y 2).val, by have h : (y 2).val < 6400 := (y 2).isLt; omega⟩ := by
  obtain ⟨u, v, p, rfl⟩ : ∃ (u : Fin 1) (v : Fin 1) (p : Fin 6400), y = ix3 u v p := ⟨y 0, y 1, y 2, eq_ix3 y⟩
  obtain rfl : u = 0 := Subsingleton.elim _ _
  obtain rfl : v = 0 := Subsingleton.elim _ _
  rw [Payload.pay_at, ← fused_eq]
  unfold fused
  subst h1 h2 h3
  simp only [h0]

/-- WHAT POINT `t` WRITES BACK is block `t` of `tiled` of the argument arrays. -/
theorem flushed_eq (c : Dev nD) (t : Fin cfg0.N) :
    (dats m 0 c).flushed 4 t = ((cfg0.win 4).blk t).view.read (Elt Ideal)
      (tiled (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz3]
  simp only [View.ld_unit_zero (S := S6400x256) hz2, View.ld_unit_zero (S := S512x256) hz2,
    View.ld_unit_zero (S := S64x512) hz2, View.ld_unit_zero (S := S1x64) hz2]
  obtain ⟨e00, e01, e10, e11, e20, e21, e30, e31, e40, e41, e42⟩ := idx_facts t
  funext y
  show k0_pay1 (F := Ideal) (iblk m c 0 t) (iblk m c 1 t) (iblk m c 2 t) (iblk m c 3 t) y
    = tiled (m ((c : Thread nD τ).loc main_arg0)) (m ((c : Thread nD τ).loc main_arg1))
        (m ((c : Thread nD τ).loc main_arg2)) (m ((c : Thread nD τ).loc main_arg3)) (((cfg0.win 4).blk t).view.emb y)
  refine (block_at (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) t.val t.isLt ?_ ?_ ?_ ?_ y).trans ?_
  · intro p i
    show V m c main_arg0 (((cfg0.win 0).blk t).view.emb (ix2 p i)) = _
    rw [V_main_arg0]
    refine congrArg _ (funext fun a => Fin.ext ?_)
    match a with
    | ⟨0, _⟩ => show win0_0.index t (0 : Fin 2) * 6400 + 1 * p.val = t.val * 6400 + p.val; omega
    | ⟨1, _⟩ => show win0_0.index t (1 : Fin 2) * 256 + 1 * i.val = i.val; omega
  · funext z
    show V m c main_v1 (((cfg0.win 1).blk t).view.emb z) = _
    rw [Weights.V_w1 m c]
    refine congrArg _ (funext fun a => Fin.ext ?_)
    match a with
    | ⟨0, _⟩ => show win0_1.index t (0 : Fin 2) * 512 + 1 * (z 0).val = (z 0).val; omega
    | ⟨1, _⟩ => show win0_1.index t (1 : Fin 2) * 256 + 1 * (z 1).val = (z 1).val; omega
  · funext z
    show V m c main_v3 (((cfg0.win 2).blk t).view.emb z) = _
    rw [Weights.V_w2 m c]
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 512 + 1 * (z 1).val = (z 1).val; omega
  · funext z
    show V m c main_v5 (((cfg0.win 3).blk t).view.emb z) = _
    rw [Weights.V_w3 m c]
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 64 + 1 * (z 1).val = (z 1).val; omega
  · unfold tiled
    refine congrArg _ (Fin.ext ?_)
    show t.val * 6400 + (y 2).val
      = (win0_4.index t (0 : Fin 3) * 1 + 1 * (y 0).val) * 6400 + (win0_4.index t (2 : Fin 3) * 6400 + 1 * (y 2).val)
    have hy : (y 0).val < 1 := (y 0).isLt
    omega

/-- An index of the result array is in point `t`'s block iff each coordinate is in the block's range on its axis. -/
theorem mem_blk (t : Fin cfg0.N) (i : S25x1x6400.Idx) :
    i ∈ ((cfg0.win 4).blk t).view.set ↔ ∀ a : Fin 3, win0_4.index t a * S1x1x6400.size a ≤ (i a).val
      ∧ (i a).val < win0_4.index t a * S1x1x6400.size a + S1x1x6400.size a := by
  show i ∈ ((View.whole main_v6).slice (win0_4.rect t)).set ↔ _
  rw [View.set_slice_whole, Rect.mem_set_unit]
  exact Iff.rfl

/-- Every index of the result array is in the block of the point named by its first coordinate. -/
theorem cover (i : S25x1x6400.Idx) :
    ∃ t : Fin cfg0.N, (cfg0.win 4).flush t = true ∧ i ∈ ((cfg0.win 4).blk t).view.set := by
  have h0 : (i 0).val < 25 := (i 0).isLt
  have h1 : (i 1).val < 1 := (i 1).isLt
  have h2 : (i 2).val < 6400 := (i 2).isLt
  obtain ⟨t, ht⟩ : ∃ t : Fin cfg0.N, t.val = (i 0).val := ⟨⟨(i 0).val, by rw [show cfg0.N = 25 from N_0]; exact h0⟩, rfl⟩
  obtain ⟨-, -, -, -, -, -, -, -, e40, e41, e42⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 6400 ≤ (i 2).val ∧ (i 2).val < win0_4.index t (2 : Fin 3) * 6400 + 6400
    omega

/-- THE RESULT ARRAY after the region: `tiled` of the argument arrays. -/
theorem final (c : Dev nD) : (dats m 0 c).arrAt 4 cfg0.N
    = tiled (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

end Cert.Blocks

end
-- ==== Proof.KernelRun.lean ====
/-
  The kernel program's run, read. After the region the host reshapes the `[25, 1, 6400]` result to `[160000, 1]`: a
  reshape keeps row-major positions, and position `n` of `[160000, 1]` is position `(n / 6400, 0, n % 6400)` of
  `[25, 1, 6400]`, where the region left the perceptron at row `6400 · (n / 6400) + n % 6400 = n`. So the program's
  result is `Cert.Mlp.mlp` of its four arguments, and the arguments end unchanged (the generated frame).
-/
import proofs.«122301_g30520037605946_cont_9to1_2283_15_alg».proof.Proof.Gen.KernelIdeal.Frame
import proofs.«122301_g30520037605946_cont_9to1_2283_15_alg».proof.Proof.Blocks
import Idealize.ShloMosaic.Lib.StableHlo.Run
import Idealize.ShloMosaic.Lib.Pipeline.Value

noncomputable section

namespace Cert.KernelRun

open Cert.KernelIdeal Cert.KernelIdeal.Gen Idealize.ShloMosaic Idealize.ShloMosaic.TcCoe Idealize.SL.Sem
open Idealize.ShloMosaic.StableHlo Idealize.ShloMosaic.ValueIdx Cert.Mlp Cert.Blocks

variable (m : (ℓ : Loc nD τ sig) → Buf (Elt Ideal) ℓ) (ρ : Dev nD → PrngReg)

/-- The tiled result reshaped to a column is the perceptron's result array. -/
theorem reshape_tiled (E : Arr 160000 256) (w1 : Arr 256 500) (w2 : Arr 500 50) (w3 : Arr 50 1)
    (h : S25x1x6400.ShapeCasts S160000x1) : shapeCast S160000x1 (tiled E w1 w2 w3) h = mlp E w1 w2 w3 := by
  funext i
  obtain ⟨n, u, rfl⟩ : ∃ (n : Fin 160000) (u : Fin 1), i = ix2 n u := ⟨i 0, i 1, eq_ix2 i⟩
  obtain rfl : u = 0 := Subsingleton.elim _ _
  have hn : n.val < 160000 := n.isLt
  refine (shapeCast_apply _ h (ix2 n (0 : Fin 1))
    (ix3 (⟨n.val / 6400, by omega⟩ : Fin 25) (0 : Fin 1) (⟨n.val % 6400, Nat.mod_lt _ (by norm_num)⟩ : Fin 6400)) ?_).trans ?_
  · rw [Shape.rowMajor_val_three, Shape.rowMajor_val_two]
    show (n.val / 6400 * 1 + 0) * 6400 + n.val % 6400 = n.val * 1 + 0
    omega
  · unfold tiled mlp
    refine congrArg _ (Fin.ext ?_)
    show n.val / 6400 * 6400 + n.val % 6400 = n.val
    omega

/-- What the host tail leaves in the program's result buffer. -/
theorem tail_eq (c : Dev nD) :
    (Pipeline.afterTail₀ cfgs (dats m) 0 (V0 m) [hostOps1] c main_v7 : S160000x1.Idx → EReal)
      = mlp (m ((c : Thread nD τ).loc main_arg0)) (m ((c : Thread nD τ).loc main_arg1))
          (m ((c : Thread nD τ).loc main_arg2)) (m ((c : Thread nD τ).loc main_arg3)) := by
  have e : (Pipeline.withArrays (cfgs 0).spec c (V0 m c) (fun w => (dats m 0 c).arrAt w (cfgs 0).N)
        (Proc.devRef .tc main_v6) : S25x1x6400.Idx → EReal)
      = tiled (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c (V0 m c) (fun w => (dats m 0 c).arrAt w (cfgs 0).N) 4).trans
      (Blocks.final m c)
  unfold Pipeline.afterTail₀
  show StableHlo.after hostOps1 _ (Proc.devRef .tc main_v7) = _
  after_results
  show shapeCast S160000x1 (Pipeline.withArrays (cfgs 0).spec c (V0 m c) (fun w => (dats m 0 c).arrAt w (cfgs 0).N)
    (Proc.devRef .tc main_v6)) shapeCasts_S25x1x6400_S160000x1 = _
  rw [e]
  exact reshape_tiled _ _ _ _ _

/-- The kernel program's run: its result is the perceptron of its arguments, and the arguments end unchanged. -/
theorem run : θ_run defs (onTc (τ := τ) (main (F := Ideal))) ⟨m, fun _ => 0, ρ⟩ (fun r => ∀ c : Dev nD,
      r.2.mem ((c.tc : Thread nD τ).loc main_v7)
        = mlp (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.lean ====
/- The proof of `Cert.Claim`: a fused three-layer perceptron kernel against its plain reference,

     out = relu (relu (E · w1) · w2) · w3,    E : [160000, 256], w1 : [256, 500], w2 : [500, 50], w3 : [50, 1].

   The reference forms the three products one after the other. The kernel takes `E` 6400 rows at a time and works on
   the weights TRANSPOSED and PADDED WITH ZEROS (hidden widths 500 → 512 and 50 → 64); it keeps the second hidden layer
   transposed so that its result is one lane-major row per block, writes the rows into `[25, 1, 6400]`, and the host
   reshapes that to `[160000, 1]`.

   On the extended reals the two agree entry by entry: a change of float format is the identity, a matrix product into
   a zero accumulator is a plain sum, every padded term is `0 · x = 0` (whatever `x`, so no entry need be finite and the
   precondition is never opened), and what remains differs by the order of each product's two factors
   (Proof/Spec.lean `fused_eq`). Proof/RefSpec.lean reads the reference's run as that function, Proof/Payload.lean the
   kernel body's stored row, Proof/Weights.lean the padded weights the host prepares, Proof/Blocks.lean the result
   array the 25 blocks tile, Proof/KernelRun.lean the final reshape and the kernel program's run. The three frames are
   the generated ones (the reference's is its generated run with the result dropped); the idealization rewrote
   nothing, so `preserves` is `True`. -/
import proofs.«122301_g30520037605946_cont_9to1_2283_15_alg».proof.Defs
import proofs.«122301_g30520037605946_cont_9to1_2283_15_alg».proof.Proof.Gen.Kernel
import proofs.«122301_g30520037605946_cont_9to1_2283_15_alg».proof.Proof.Gen.Kernel.Skeleton
import proofs.«122301_g30520037605946_cont_9to1_2283_15_alg».proof.Proof.Gen.Kernel.Launch
import proofs.«122301_g30520037605946_cont_9to1_2283_15_alg».proof.Proof.Gen.Kernel.Points
import proofs.«122301_g30520037605946_cont_9to1_2283_15_alg».proof.Proof.Gen.Kernel.Frame
import proofs.«122301_g30520037605946_cont_9to1_2283_15_alg».proof.Proof.Gen.KernelIdeal
import proofs.«122301_g30520037605946_cont_9to1_2283_15_alg».proof.Proof.Gen.KernelIdeal.Skeleton
import proofs.«122301_g30520037605946_cont_9to1_2283_15_alg».proof.Proof.Gen.KernelIdeal.Launch
import proofs.«122301_g30520037605946_cont_9to1_2283_15_alg».proof.Proof.Gen.KernelIdeal.Points
import proofs.«122301_g30520037605946_cont_9to1_2283_15_alg».proof.Proof.Gen.KernelIdeal.Frame
import proofs.«122301_g30520037605946_cont_9to1_2283_15_alg».proof.Proof.Gen.ReferenceIdeal
import proofs.«122301_g30520037605946_cont_9to1_2283_15_alg».proof.Proof.Gen.Pre_finite_inputs
import proofs.«122301_g30520037605946_cont_9to1_2283_15_alg».proof.Proof.Gen.ReferenceIdeal.Run
import proofs.«122301_g30520037605946_cont_9to1_2283_15_alg».proof.Proof.Gen.ReferenceIdeal.Read
import proofs.«122301_g30520037605946_cont_9to1_2283_15_alg».proof.Proof.RefSpec
import proofs.«122301_g30520037605946_cont_9to1_2283_15_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the perceptron of those arguments in their
    result buffers: the kernel program by `Cert.KernelRun.run`, the reference by its generated run read as
    `Cert.Mlp.mlp` (`Cert.RefSpec.result_eq`). -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.RefSpec.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
